-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel

variable [Facts]

def fn {F : FTy → Type} [FloatOps F] (main_arg0 : FVec F S64x2048 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  main_v3
-- ==== Kernel.lean ====
abbrev S64x2048 : Shape := ⟨2, ![64, 2048]⟩
abbrev S64x2047 : Shape := ⟨2, ![64, 2047]⟩
abbrev S64x4095 : Shape := ⟨2, ![64, 4095]⟩
abbrev S_ : Shape := ⟨0, ![]⟩
abbrev S64x4096 : Shape := ⟨2, ![64, 4096]⟩
abbrev S64x1x4096 : Shape := ⟨3, ![64, 1, 4096]⟩
abbrev S64x2048x2048 : Shape := ⟨3, ![64, 2048, 2048]⟩
abbrev S1x1x4096 : Shape := ⟨3, ![1, 1, 4096]⟩
abbrev S1x128x2048 : Shape := ⟨3, ![1, 128, 2048]⟩
abbrev S1x1x2048 : Shape := ⟨3, ![1, 1, 2048]⟩
abbrev S2048 : Shape := ⟨1, ![2048]⟩

abbrev nBuf : Space → Nat
  | .hbm => 9
  | .vmem => 4
  | .smem => 0
  | _ => 0

abbrev bufTy : (tb : Table) → Fin (tcTables nBuf tb) → BufTy
  | .hbm, ⟨0, _⟩ => ⟨S64x2048, .f32⟩
  | .hbm, ⟨1, _⟩ => ⟨S64x2047, .f32⟩
  | .hbm, ⟨2, _⟩ => ⟨S64x2047, .f32⟩
  | .hbm, ⟨3, _⟩ => ⟨S64x4095, .f32⟩
  | .hbm, ⟨4, _⟩ => ⟨S_, .i32⟩
  | .hbm, ⟨5, _⟩ => ⟨S_, .f32⟩
  | .hbm, ⟨6, _⟩ => ⟨S64x4096, .f32⟩
  | .hbm, ⟨7, _⟩ => ⟨S64x1x4096, .f32⟩
  | .hbm, ⟨8, _⟩ => ⟨S64x2048x2048, .f32⟩
  | .local _ .vmem, ⟨0, _⟩ => ⟨S1x1x4096, .f32⟩
  | .local _ .vmem, ⟨1, _⟩ => ⟨S1x1x4096, .f32⟩
  | .local _ .vmem, ⟨2, _⟩ => ⟨S1x128x2048, .f32⟩
  | .local _ .vmem, ⟨3, _⟩ => ⟨S1x128x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call1_v0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 16], ![false, false]⟩

def k0_off1 (i : grid0.Coords) (c0_i32 : BitVec 32) : Fin 3 → Nat :=
  let c0 : Index := 0#32
  let c0_0 : Index := 0#32
  let c2047_i32 : BitVec 32 := 2047#32
  let arg1 : BitVec 32 := BitVec.ofNat 32 (i 1).val
  let c128_i32 : BitVec 32 := 128#32
  let v0 : BitVec 32 := Scalar.muli arg1 c128_i32
  let v1 : BitVec 32 := Scalar.subi c2047_i32 v0
  let v2 : BitVec 32 := Scalar.subi v1 c0_i32
  let v3 : Index := Scalar.indexCast v2
  ![0, 0, v3.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  slices_S64x2048_S64x2047_0_1 : S64x2048.Slices ![0, 1] S64x2047
  concatenates_S64x2047_S64x2048_S64x4095_d1 : Shape.Concatenates [S64x2047, S64x2048] S64x4095 1
  pads_S64x4095_S64x4096_000_010 : S64x4095.Pads (![0, 0] : Fin 2 → Nat) ![0, 1] ![0, 0] S64x4096
  h_S_ : 0 < S_.numel
  shapeCasts_S64x4096_S64x1x4096 : S64x4096.ShapeCasts S64x1x4096
  h_S1x1x2048 : 0 < S1x1x2048.numel
  shapeCasts_S1x1x2048_S2048 : S1x1x2048.ShapeCasts S2048
  inb_S1x128x2048_S1x1x2048_0_0_0 : ∀ a, (![0, 0, 0] : Fin 3 → Nat) a + S1x1x2048.size a ≤ S1x128x2048.size a
  shapeCasts_S2048_S1x1x2048 : S2048.ShapeCasts S1x1x2048
  inb_S1x128x2048_S1x1x2048_0_1_0 : ∀ a, (![0, 1, 0] : Fin 3 → Nat) a + S1x1x2048.size a ≤ S1x128x2048.size a
  inb_S1x128x2048_S1x1x2048_0_2_0 : ∀ a, (![0, 2, 0] : Fin 3 → Nat) a + S1x1x2048.size a ≤ S1x128x2048.size a
  inb_S1x128x2048_S1x1x2048_0_3_0 : ∀ a, (![0, 3, 0] : Fin 3 → Nat) a + S1x1x2048.size a ≤ S1x128x2048.size a
  inb_S1x128x2048_S1x1x2048_0_4_0 : ∀ a, (![0, 4, 0] : Fin 3 → Nat) a + S1x1x2048.size a ≤ S1x128x2048.size a
  inb_S1x128x2048_S1x1x2048_0_5_0 : ∀ a, (![0, 5, 0] : Fin 3 → Nat) a + S1x1x2048.size a ≤ S1x128x2048.size a
  inb_S1x128x2048_S1x1x2048_0_6_0 : ∀ a, (![0, 6, 0] : Fin 3 → Nat) a + S1x1x2048.size a ≤ S1x128x2048.size a
  inb_S1x128x2048_S1x1x2048_0_7_0 : ∀ a, (![0, 7, 0] : Fin 3 → Nat) a + S1x1x2048.size a ≤ S1x128x2048.size a
  inb_S1x128x2048_S1x1x2048_0_8_0 : ∀ a, (![0, 8, 0] : Fin 3 → Nat) a + S1x1x2048.size a ≤ S1x128x2048.size a
  inb_S1x128x2048_S1x1x2048_0_9_0 : ∀ a, (![0, 9, 0] : Fin 3 → Nat) a + S1x1x2048.size a ≤ S1x128x2048.size a
  inb_S1x128x2048_S1x1x2048_0_10_0 : ∀ a, (![0, 10, 0] : Fin 3 → Nat) a + S1x1x2048.size a ≤ S1x128x2048.size a
  inb_S1x128x2048_S1x1x2048_0_11_0 : ∀ a, (![0, 11, 0] : Fin 3 → Nat) a + S1x1x2048.size a ≤ S1x128x2048.size a
  inb_S1x128x2048_S1x1x2048_0_12_0 : ∀ a, (![0, 12, 0] : Fin 3 → Nat) a + S1x1x2048.size a ≤ S1x128x2048.size a
  inb_S1x128x2048_S1x1x2048_0_13_0 : ∀ a, (![0, 13, 0] : Fin 3 → Nat) a + S1x1x2048.size a ≤ S1x128x2048.size a
  inb_S1x128x2048_S1x1x2048_0_14_0 : ∀ a, (![0, 14, 0] : Fin 3 → Nat) a + S1x1x2048.size a ≤ S1x128x2048.size a
  inb_S1x128x2048_S1x1x2048_0_15_0 : ∀ a, (![0, 15, 0] : Fin 3 → Nat) a + S1x1x2048.size a ≤ S1x128x2048.size a
  inb_S1x128x2048_S1x1x2048_0_16_0 : ∀ a, (![0, 16, 0] : Fin 3 → Nat) a + S1x1x2048.size a ≤ S1x128x2048.size a
  inb_S1x128x2048_S1x1x2048_0_17_0 : ∀ a, (![0, 17, 0] : Fin 3 → Nat) a + S1x1x2048.size a ≤ S1x128x2048.size a
  inb_S1x128x2048_S1x1x2048_0_18_0 : ∀ a, (![0, 18, 0] : Fin 3 → Nat) a + S1x1x2048.size a ≤ S1x128x2048.size a
  inb_S1x128x2048_S1x1x2048_0_19_0 : ∀ a, (![0, 19, 0] : Fin 3 → Nat) a + S1x1x2048.size a ≤ S1x128x2048.size a
  inb_S1x128x2048_S1x1x2048_0_20_0 : ∀ a, (![0, 20, 0] : Fin 3 → Nat) a + S1x1x2048.size a ≤ S1x128x2048.size a
  inb_S1x128x2048_S1x1x2048_0_21_0 : ∀ a, (![0, 21, 0] : Fin 3 → Nat) a + S1x1x2048.size a ≤ S1x128x2048.size a
  inb_S1x128x2048_S1x1x2048_0_22_0 : ∀ a, (![0, 22, 0] : Fin 3 → Nat) a + S1x1x2048.size a ≤ S1x128x2048.size a
  inb_S1x128x2048_S1x1x2048_0_23_0 : ∀ a, (![0, 23, 0] : Fin 3 → Nat) a + S1x1x2048.size a ≤ S1x128x2048.size a
  inb_S1x128x2048_S1x1x2048_0_24_0 : ∀ a, (![0, 24, 0] : Fin 3 → Nat) a + S1x1x2048.size a ≤ S1x128x2048.size a
  inb_S1x128x2048_S1x1x2048_0_25_0 : ∀ a, (![0, 25, 0] : Fin 3 → Nat) a + S1x1x2048.size a ≤ S1x128x2048.size a
  inb_S1x128x2048_S1x1x2048_0_26_0 : ∀ a, (![0, 26, 0] : Fin 3 → Nat) a + S1x1x2048.size a ≤ S1x128x2048.size a
  inb_S1x128x2048_S1x1x2048_0_27_0 : ∀ a, (![0, 27, 0] : Fin 3 → Nat) a + S1x1x2048.size a ≤ S1x128x2048.size a
  inb_S1x128x2048_S1x1x2048_0_28_0 : ∀ a, (![0, 28, 0] : Fin 3 → Nat) a + S1x1x2048.size a ≤ S1x128x2048.size a
  inb_S1x128x2048_S1x1x2048_0_29_0 : ∀ a, (![0, 29, 0] : Fin 3 → Nat) a + S1x1x2048.size a ≤ S1x128x2048.size a
  inb_S1x128x2048_S1x1x2048_0_30_0 : ∀ a, (![0, 30, 0] : Fin 3 → Nat) a + S1x1x2048.size a ≤ S1x128x2048.size a
  inb_S1x128x2048_S1x1x2048_0_31_0 : ∀ a, (![0, 31, 0] : Fin 3 → Nat) a + S1x1x2048.size a ≤ S1x128x2048.size a
  inb_S1x128x2048_S1x1x2048_0_32_0 : ∀ a, (![0, 32, 0] : Fin 3 → Nat) a + S1x1x2048.size a ≤ S1x128x2048.size a
  inb_S1x128x2048_S1x1x2048_0_33_0 : ∀ a, (![0, 33, 0] : Fin 3 → Nat) a + S1x1x2048.size a ≤ S1x128x2048.size a
  inb_S1x128x2048_S1x1x2048_0_34_0 : ∀ a, (![0, 34, 0] : Fin 3 → Nat) a + S1x1x2048.size a ≤ S1x128x2048.size a
  inb_S1x128x2048_S1x1x2048_0_35_0 : ∀ a, (![0, 35, 0] : Fin 3 → Nat) a + S1x1x2048.size a ≤ S1x128x2048.size a
  inb_S1x128x2048_S1x1x2048_0_36_0 : ∀ a, (![0, 36, 0] : Fin 3 → Nat) a + S1x1x2048.size a ≤ S1x128x2048.size a
  inb_S1x128x2048_S1x1x2048_0_37_0 : ∀ a, (![0, 37, 0] : Fin 3 → Nat) a + S1x1x2048.size a ≤ S1x128x2048.size a
  inb_S1x128x2048_S1x1x2048_0_38_0 : ∀ a, (![0, 38, 0] : Fin 3 → Nat) a + S1x1x2048.size a ≤ S1x128x2048.size a
  inb_S1x128x2048_S1x1x2048_0_39_0 : ∀ a, (![0, 39, 0] : Fin 3 → Nat) a + S1x1x2048.size a ≤ S1x128x2048.size a
  inb_S1x128x2048_S1x1x2048_0_40_0 : ∀ a, (![0, 40, 0] : Fin 3 → Nat) a + S1x1x2048.size a ≤ S1x128x2048.size a
  inb_S1x128x2048_S1x1x2048_0_41_0 : ∀ a, (![0, 41, 0] : Fin 3 → Nat) a + S1x1x2048.size a ≤ S1x128x2048.size a
  inb_S1x128x2048_S1x1x2048_0_42_0 : ∀ a, (![0, 42, 0] : Fin 3 → Nat) a + S1x1x2048.size a ≤ S1x128x2048.size a
  inb_S1x128x2048_S1x1x2048_0_43_0 : ∀ a, (![0, 43, 0] : Fin 3 → Nat) a + S1x1x2048.size a ≤ S1x128x2048.size a
  inb_S1x128x2048_S1x1x2048_0_44_0 : ∀ a, (![0, 44, 0] : Fin 3 → Nat) a + S1x1x2048.size a ≤ S1x128x2048.size a
  inb_S1x128x2048_S1x1x2048_0_45_0 : ∀ a, (![0, 45, 0] : Fin 3 → Nat) a + S1x1x2048.size a ≤ S1x128x2048.size a
  inb_S1x128x2048_S1x1x2048_0_46_0 : ∀ a, (![0, 46, 0] : Fin 3 → Nat) a + S1x1x2048.size a ≤ S1x128x2048.size a
  inb_S1x128x2048_S1x1x2048_0_47_0 : ∀ a, (![0, 47, 0] : Fin 3 → Nat) a + S1x1x2048.size a ≤ S1x128x2048.size a
  inb_S1x128x2048_S1x1x2048_0_48_0 : ∀ a, (![0, 48, 0] : Fin 3 → Nat) a + S1x1x2048.size a ≤ S1x128x2048.size a
  inb_S1x128x2048_S1x1x2048_0_49_0 : ∀ a, (![0, 49, 0] : Fin 3 → Nat) a + S1x1x2048.size a ≤ S1x128x2048.size a
  inb_S1x128x2048_S1x1x2048_0_50_0 : ∀ a, (![0, 50, 0] : Fin 3 → Nat) a + S1x1x2048.size a ≤ S1x128x2048.size a
  inb_S1x128x2048_S1x1x2048_0_51_0 : ∀ a, (![0, 51, 0] : Fin 3 → Nat) a + S1x1x2048.size a ≤ S1x128x2048.size a
  inb_S1x128x2048_S1x1x2048_0_52_0 : ∀ a, (![0, 52, 0] : Fin 3 → Nat) a + S1x1x2048.size a ≤ S1x128x2048.size a
  inb_S1x128x2048_S1x1x2048_0_53_0 : ∀ a, (![0, 53, 0] : Fin 3 → Nat) a + S1x1x2048.size a ≤ S1x128x2048.size a
  inb_S1x128x2048_S1x1x2048_0_54_0 : ∀ a, (![0, 54, 0] : Fin 3 → Nat) a + S1x1x2048.size a ≤ S1x128x2048.size a
  inb_S1x128x2048_S1x1x2048_0_55_0 : ∀ a, (![0, 55, 0] : Fin 3 → Nat) a + S1x1x2048.size a ≤ S1x128x2048.size a
  inb_S1x128x2048_S1x1x2048_0_56_0 : ∀ a, (![0, 56, 0] : Fin 3 → Nat) a + S1x1x2048.size a ≤ S1x128x2048.size a
  inb_S1x128x2048_S1x1x2048_0_57_0 : ∀ a, (![0, 57, 0] : Fin 3 → Nat) a + S1x1x2048.size a ≤ S1x128x2048.size a
  inb_S1x128x2048_S1x1x2048_0_58_0 : ∀ a, (![0, 58, 0] : Fin 3 → Nat) a + S1x1x2048.size a ≤ S1x128x2048.size a
  inb_S1x128x2048_S1x1x2048_0_59_0 : ∀ a, (![0, 59, 0] : Fin 3 → Nat) a + S1x1x2048.size a ≤ S1x128x2048.size a
  inb_S1x128x2048_S1x1x2048_0_60_0 : ∀ a, (![0, 60, 0] : Fin 3 → Nat) a + S1x1x2048.size a ≤ S1x128x2048.size a
  inb_S1x128x2048_S1x1x2048_0_61_0 : ∀ a, (![0, 61, 0] : Fin 3 → Nat) a + S1x1x2048.size a ≤ S1x128x2048.size a
  inb_S1x128x2048_S1x1x2048_0_62_0 : ∀ a, (![0, 62, 0] : Fin 3 → Nat) a + S1x1x2048.size a ≤ S1x128x2048.size a
  inb_S1x128x2048_S1x1x2048_0_63_0 : ∀ a, (![0, 63, 0] : Fin 3 → Nat) a + S1x1x2048.size a ≤ S1x128x2048.size a
  inb_S1x128x2048_S1x1x2048_0_64_0 : ∀ a, (![0, 64, 0] : Fin 3 → Nat) a + S1x1x2048.size a ≤ S1x128x2048.size a
  inb_S1x128x2048_S1x1x2048_0_65_0 : ∀ a, (![0, 65, 0] : Fin 3 → Nat) a + S1x1x2048.size a ≤ S1x128x2048.size a
  inb_S1x128x2048_S1x1x2048_0_66_0 : ∀ a, (![0, 66, 0] : Fin 3 → Nat) a + S1x1x2048.size a ≤ S1x128x2048.size a
  inb_S1x128x2048_S1x1x2048_0_67_0 : ∀ a, (![0, 67, 0] : Fin 3 → Nat) a + S1x1x2048.size a ≤ S1x128x2048.size a
  inb_S1x128x2048_S1x1x2048_0_68_0 : ∀ a, (![0, 68, 0] : Fin 3 → Nat) a + S1x1x2048.size a ≤ S1x128x2048.size a
  inb_S1x128x2048_S1x1x2048_0_69_0 : ∀ a, (![0, 69, 0] : Fin 3 → Nat) a + S1x1x2048.size a ≤ S1x128x2048.size a
  inb_S1x128x2048_S1x1x2048_0_70_0 : ∀ a, (![0, 70, 0] : Fin 3 → Nat) a + S1x1x2048.size a ≤ S1x128x2048.size a
  inb_S1x128x2048_S1x1x2048_0_71_0 : ∀ a, (![0, 71, 0] : Fin 3 → Nat) a + S1x1x2048.size a ≤ S1x128x2048.size a
  inb_S1x128x2048_S1x1x2048_0_72_0 : ∀ a, (![0, 72, 0] : Fin 3 → Nat) a + S1x1x2048.size a ≤ S1x128x2048.size a
  inb_S1x128x2048_S1x1x2048_0_73_0 : ∀ a, (![0, 73, 0] : Fin 3 → Nat) a + S1x1x2048.size a ≤ S1x128x2048.size a
  inb_S1x128x2048_S1x1x2048_0_74_0 : ∀ a, (![0, 74, 0] : Fin 3 → Nat) a + S1x1x2048.size a ≤ S1x128x2048.size a
  inb_S1x128x2048_S1x1x2048_0_75_0 : ∀ a, (![0, 75, 0] : Fin 3 → Nat) a + S1x1x2048.size a ≤ S1x128x2048.size a
  inb_S1x128x2048_S1x1x2048_0_76_0 : ∀ a, (![0, 76, 0] : Fin 3 → Nat) a + S1x1x2048.size a ≤ S1x128x2048.size a
  inb_S1x128x2048_S1x1x2048_0_77_0 : ∀ a, (![0, 77, 0] : Fin 3 → Nat) a + S1x1x2048.size a ≤ S1x128x2048.size a
  inb_S1x128x2048_S1x1x2048_0_78_0 : ∀ a, (![0, 78, 0] : Fin 3 → Nat) a + S1x1x2048.size a ≤ S1x128x2048.size a
  inb_S1x128x2048_S1x1x2048_0_79_0 : ∀ a, (![0, 79, 0] : Fin 3 → Nat) a + S1x1x2048.size a ≤ S1x128x2048.size a
  inb_S1x128x2048_S1x1x2048_0_80_0 : ∀ a, (![0, 80, 0] : Fin 3 → Nat) a + S1x1x2048.size a ≤ S1x128x2048.size a
  inb_S1x128x2048_S1x1x2048_0_81_0 : ∀ a, (![0, 81, 0] : Fin 3 → Nat) a + S1x1x2048.size a ≤ S1x128x2048.size a
  inb_S1x128x2048_S1x1x2048_0_82_0 : ∀ a, (![0, 82, 0] : Fin 3 → Nat) a + S1x1x2048.size a ≤ S1x128x2048.size a
  inb_S1x128x2048_S1x1x2048_0_83_0 : ∀ a, (![0, 83, 0] : Fin 3 → Nat) a + S1x1x2048.size a ≤ S1x128x2048.size a
  inb_S1x128x2048_S1x1x2048_0_84_0 : ∀ a, (![0, 84, 0] : Fin 3 → Nat) a + S1x1x2048.size a ≤ S1x128x2048.size a
  inb_S1x128x2048_S1x1x2048_0_85_0 : ∀ a, (![0, 85, 0] : Fin 3 → Nat) a + S1x1x2048.size a ≤ S1x128x2048.size a
  inb_S1x128x2048_S1x1x2048_0_86_0 : ∀ a, (![0, 86, 0] : Fin 3 → Nat) a + S1x1x2048.size a ≤ S1x128x2048.size a
  inb_S1x128x2048_S1x1x2048_0_87_0 : ∀ a, (![0, 87, 0] : Fin 3 → Nat) a + S1x1x2048.size a ≤ S1x128x2048.size a
  inb_S1x128x2048_S1x1x2048_0_88_0 : ∀ a, (![0, 88, 0] : Fin 3 → Nat) a + S1x1x2048.size a ≤ S1x128x2048.size a
  inb_S1x128x2048_S1x1x2048_0_89_0 : ∀ a, (![0, 89, 0] : Fin 3 → Nat) a + S1x1x2048.size a ≤ S1x128x2048.size a
  inb_S1x128x2048_S1x1x2048_0_90_0 : ∀ a, (![0, 90, 0] : Fin 3 → Nat) a + S1x1x2048.size a ≤ S1x128x2048.size a
  inb_S1x128x2048_S1x1x2048_0_91_0 : ∀ a, (![0, 91, 0] : Fin 3 → Nat) a + S1x1x2048.size a ≤ S1x128x2048.size a
  inb_S1x128x2048_S1x1x2048_0_92_0 : ∀ a, (![0, 92, 0] : Fin 3 → Nat) a + S1x1x2048.size a ≤ S1x128x2048.size a
  inb_S1x128x2048_S1x1x2048_0_93_0 : ∀ a, (![0, 93, 0] : Fin 3 → Nat) a + S1x1x2048.size a ≤ S1x128x2048.size a
  inb_S1x128x2048_S1x1x2048_0_94_0 : ∀ a, (![0, 94, 0] : Fin 3 → Nat) a + S1x1x2048.size a ≤ S1x128x2048.size a
  inb_S1x128x2048_S1x1x2048_0_95_0 : ∀ a, (![0, 95, 0] : Fin 3 → Nat) a + S1x1x2048.size a ≤ S1x128x2048.size a
  inb_S1x128x2048_S1x1x2048_0_96_0 : ∀ a, (![0, 96, 0] : Fin 3 → Nat) a + S1x1x2048.size a ≤ S1x128x2048.size a
  inb_S1x128x2048_S1x1x2048_0_97_0 : ∀ a, (![0, 97, 0] : Fin 3 → Nat) a + S1x1x2048.size a ≤ S1x128x2048.size a
  inb_S1x128x2048_S1x1x2048_0_98_0 : ∀ a, (![0, 98, 0] : Fin 3 → Nat) a + S1x1x2048.size a ≤ S1x128x2048.size a
  inb_S1x128x2048_S1x1x2048_0_99_0 : ∀ a, (![0, 99, 0] : Fin 3 → Nat) a + S1x1x2048.size a ≤ S1x128x2048.size a
  inb_S1x128x2048_S1x1x2048_0_100_0 : ∀ a, (![0, 100, 0] : Fin 3 → Nat) a + S1x1x2048.size a ≤ S1x128x2048.size a
  inb_S1x128x2048_S1x1x2048_0_101_0 : ∀ a, (![0, 101, 0] : Fin 3 → Nat) a + S1x1x2048.size a ≤ S1x128x2048.size a
  inb_S1x128x2048_S1x1x2048_0_102_0 : ∀ a, (![0, 102, 0] : Fin 3 → Nat) a + S1x1x2048.size a ≤ S1x128x2048.size a
  inb_S1x128x2048_S1x1x2048_0_103_0 : ∀ a, (![0, 103, 0] : Fin 3 → Nat) a + S1x1x2048.size a ≤ S1x128x2048.size a
  inb_S1x128x2048_S1x1x2048_0_104_0 : ∀ a, (![0, 104, 0] : Fin 3 → Nat) a + S1x1x2048.size a ≤ S1x128x2048.size a
  inb_S1x128x2048_S1x1x2048_0_105_0 : ∀ a, (![0, 105, 0] : Fin 3 → Nat) a + S1x1x2048.size a ≤ S1x128x2048.size a
  inb_S1x128x2048_S1x1x2048_0_106_0 : ∀ a, (![0, 106, 0] : Fin 3 → Nat) a + S1x1x2048.size a ≤ S1x128x2048.size a
  inb_S1x128x2048_S1x1x2048_0_107_0 : ∀ a, (![0, 107, 0] : Fin 3 → Nat) a + S1x1x2048.size a ≤ S1x128x2048.size a
  inb_S1x128x2048_S1x1x2048_0_108_0 : ∀ a, (![0, 108, 0] : Fin 3 → Nat) a + S1x1x2048.size a ≤ S1x128x2048.size a
  inb_S1x128x2048_S1x1x2048_0_109_0 : ∀ a, (![0, 109, 0] : Fin 3 → Nat) a + S1x1x2048.size a ≤ S1x128x2048.size a
  inb_S1x128x2048_S1x1x2048_0_110_0 : ∀ a, (![0, 110, 0] : Fin 3 → Nat) a + S1x1x2048.size a ≤ S1x128x2048.size a
  inb_S1x128x2048_S1x1x2048_0_111_0 : ∀ a, (![0, 111, 0] : Fin 3 → Nat) a + S1x1x2048.size a ≤ S1x128x2048.size a
  inb_S1x128x2048_S1x1x2048_0_112_0 : ∀ a, (![0, 112, 0] : Fin 3 → Nat) a + S1x1x2048.size a ≤ S1x128x2048.size a
  inb_S1x128x2048_S1x1x2048_0_113_0 : ∀ a, (![0, 113, 0] : Fin 3 → Nat) a + S1x1x2048.size a ≤ S1x128x2048.size a
  inb_S1x128x2048_S1x1x2048_0_114_0 : ∀ a, (![0, 114, 0] : Fin 3 → Nat) a + S1x1x2048.size a ≤ S1x128x2048.size a
  inb_S1x128x2048_S1x1x2048_0_115_0 : ∀ a, (![0, 115, 0] : Fin 3 → Nat) a + S1x1x2048.size a ≤ S1x128x2048.size a
  inb_S1x128x2048_S1x1x2048_0_116_0 : ∀ a, (![0, 116, 0] : Fin 3 → Nat) a + S1x1x2048.size a ≤ S1x128x2048.size a
  inb_S1x128x2048_S1x1x2048_0_117_0 : ∀ a, (![0, 117, 0] : Fin 3 → Nat) a + S1x1x2048.size a ≤ S1x128x2048.size a
  inb_S1x128x2048_S1x1x2048_0_118_0 : ∀ a, (![0, 118, 0] : Fin 3 → Nat) a + S1x1x2048.size a ≤ S1x128x2048.size a
  inb_S1x128x2048_S1x1x2048_0_119_0 : ∀ a, (![0, 119, 0] : Fin 3 → Nat) a + S1x1x2048.size a ≤ S1x128x2048.size a
  inb_S1x128x2048_S1x1x2048_0_120_0 : ∀ a, (![0, 120, 0] : Fin 3 → Nat) a + S1x1x2048.size a ≤ S1x128x2048.size a
  inb_S1x128x2048_S1x1x2048_0_121_0 : ∀ a, (![0, 121, 0] : Fin 3 → Nat) a + S1x1x2048.size a ≤ S1x128x2048.size a
  inb_S1x128x2048_S1x1x2048_0_122_0 : ∀ a, (![0, 122, 0] : Fin 3 → Nat) a + S1x1x2048.size a ≤ S1x128x2048.size a
  inb_S1x128x2048_S1x1x2048_0_123_0 : ∀ a, (![0, 123, 0] : Fin 3 → Nat) a + S1x1x2048.size a ≤ S1x128x2048.size a
  inb_S1x128x2048_S1x1x2048_0_124_0 : ∀ a, (![0, 124, 0] : Fin 3 → Nat) a + S1x1x2048.size a ≤ S1x128x2048.size a
  inb_S1x128x2048_S1x1x2048_0_125_0 : ∀ a, (![0, 125, 0] : Fin 3 → Nat) a + S1x1x2048.size a ≤ S1x128x2048.size a
  inb_S1x128x2048_S1x1x2048_0_126_0 : ∀ a, (![0, 126, 0] : Fin 3 → Nat) a + S1x1x2048.size a ≤ S1x128x2048.size a
  inb_S1x128x2048_S1x1x2048_0_127_0 : ∀ a, (![0, 127, 0] : Fin 3 → Nat) a + S1x1x2048.size a ≤ S1x128x2048.size a
  hrank0 : 0 < grid0.rank
  k0_off1_inb : ∀ i : grid0.Coords, ∀ (r : Fin 128), ∀ a, (k0_off1 i (BitVec.ofNat 32 r.val)) a + S1x1x2048.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096.size a ≤ S64x1x4096.size a
  hwx0_0 : ∀ i : grid0.Coords, EltTy.bits .f32 = 32 ∨ (Rect.block (s := S64x1x4096) S1x1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S64x2048x2048.size a
  hwx0_1 : ∀ i : grid0.Coords, EltTy.bits .f32 = 32 ∨ (Rect.block (s := S64x2048x2048) S1x128x2048.size (cc0_transform_1 i) (hinb0_1 i)).WholeWords (EltTy.packing .f32)

variable [Facts₀]

abbrev win0_0 : Pipeline.Window sig grid0 :=
  Pipeline.Window.ofSpec (Memref.whole main_v4) S1x1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2048 : Shape := ⟨2, ![64, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S64x2048x2048 : Shape := ⟨3, ![64, 2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .i32⟩
  | .hbm, ⟨2, _⟩ => ⟨S2048x1, .i32⟩
  | .hbm, ⟨3, _⟩ => ⟨S1x2048, .i32⟩
  | .hbm, ⟨4, _⟩ => ⟨S2048x2048, .i32⟩
  | .hbm, ⟨5, _⟩ => ⟨S2048x2048, .i32⟩
  | .hbm, ⟨6, _⟩ => ⟨S2048x2048, .i32⟩
  | .hbm, ⟨7, _⟩ => ⟨S2048x2048, .i32⟩
  | .hbm, ⟨8, _⟩ => ⟨S_, .i32⟩
  | .hbm, ⟨9, _⟩ => ⟨S2048x2048, .i32⟩
  | .hbm, ⟨10, _⟩ => ⟨S2048x2048, .i1⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048x1, .i32⟩
  | .hbm, ⟨16, _⟩ => ⟨S64x2048x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  gather_S64x2048_S2048x2048x1_S64x2048x2048_0_1_n_n_1_2_641_wf : GatherDims.WF S64x2048 S2048x2048x1 S64x2048x2048 [0] [1] [] [1] [] 2 ![64, 1]

variable [Facts₀]

def gather_S64x2048_S2048x2048x1_S64x2048x2048_0_1_n_n_1_2_641 : GatherDims S64x2048 S2048x2048x1 S64x2048x2048 where
  offsetDims := [0]
  collapsedSliceDims := [1]
  operandBatchingDims := []
  startIndicesBatchingDims := []
  startIndexMap := [1]
  indexVectorDim := 2
  sliceSizes := ![64, 1]
  wf := gather_S64x2048_S2048x2048x1_S64x2048x2048_0_1_n_n_1_2_641_wf

class Facts : Prop extends Facts₀ where

variable [Facts]
-- ==== Proof.ToeplitzSpec.lean ====
/-
  The specification: the symmetric Toeplitz fill. For a batch row `n`, the entry at row `i`, column `j` of the
  result is the input's entry at column `|i - j|` of the same batch row.
-/
import Idealize.ShloMosaic.PureOps.Ideal
import Idealize.ShloMosaic.Lib.ValueIdx

noncomputable section

namespace Toeplitz

open Idealize.ShloMosaic Idealize.ShloMosaic.ValueIdx

/-- The distance `|i - j|` of two positions below 2048, as a position. -/
def dist (i j : Fin 2048) : Fin 2048 :=
  ⟨if i.val ≤ j.val then j.val - i.val else i.val - j.val, by split <;> omega⟩

theorem dist_val (i j : Fin 2048) : (dist i j).val = if i.val ≤ j.val then j.val - i.val else i.val - j.val := rfl

/-- The fill: entry `(n, i, j)` of the result is entry `(n, |i - j|)` of the input. -/
def fill {α : Type} (x : (⟨2, ![64, 2048]⟩ : Shape).Idx → α) : (⟨3, ![64, 2048, 2048]⟩ : Shape).Idx → α :=
  fun j => x (ix2 (j 0) (dist (j 1) (j 2)))

theorem fill_apply {α : Type} (x : (⟨2, ![64, 2048]⟩ : Shape).Idx → α) (n : Fin 64) (i j : Fin 2048) :
    fill x (ix3 n i j) = x (ix2 n (dist i j)) := rfl

end Toeplitz

end
-- ==== Proof.RefToeplitz.lean ====
/-
  The reference is the fill. The reference builds the table of start indices `|i - j|` with 32-bit integer operations
  (an iota broadcast along rows and along columns, their difference, its absolute value, and a wrap of negative
  values by 2048 that never fires), then gathers column `|i - j|` of every batch row. Positions are below 2048, so no
  word operation wraps, and the gather's clamp into `[0, 2047]` changes nothing: entry `(n, i, j)` is the input's
  `(n, |i - j|)`.
-/
import proofs.«162363_j25417616458409_1_alg».proof.Proof.Gen.ReferenceIdeal.Read
import proofs.«162363_j25417616458409_1_alg».proof.Proof.ToeplitzSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

variable {F : FTy → Type} [FloatOps F]

/-! ## Words: the distance of two positions below 2048 -/

/-- The absolute value of the difference of two positions, as 32-bit words, is the word of their distance. -/
theorem absi_sub (a b : Nat) (ha : a < 2048) (hb : b < 2048) :
    IntOp.absi (IntOp.subi (BitVec.ofNat 32 a) (BitVec.ofNat 32 b)) = BitVec.ofNat 32 (if a ≤ b then b - a else a - b) := by
  unfold IntOp.absi IntOp.subi
  apply BitVec.eq_of_toNat_eq
  rw [BitVec.msb_eq_decide]
  by_cases h : a ≤ b
  · rw [if_pos h]
    by_cases h' : a = b
    · subst h'
      simp
    · have hlt : a < b := by omega
      have e : (BitVec.ofNat 32 a - BitVec.ofNat 32 b).toNat = 4294967296 - b + a := by
        rw [BitVec.toNat_sub, BitVec.toNat_ofNat, BitVec.toNat_ofNat]
        omega
      rw [if_pos (by rw [e]; simp; omega)]
      rw [BitVec.toNat_neg, e, BitVec.toNat_ofNat]
      omega
  · rw [if_neg h]
    have e : (BitVec.ofNat 32 a - BitVec.ofNat 32 b).toNat = a - b := by
      rw [BitVec.toNat_sub, BitVec.toNat_ofNat, BitVec.toNat_ofNat]
      omega
    rw [if_neg (by rw [e]; simp; omega)]
    rw [e, BitVec.toNat_ofNat]
    omega

/-- A position's word is not negative. -/
theorem slt_zero (d : Nat) (hd : d < 2048) : IntOp.cmpi .slt (BitVec.ofNat 32 d) 0#32 = 0#1 := by
  unfold IntOp.cmpi
  show BitVec.ofBool ((BitVec.ofNat 32 d).slt 0#32) = 0#1
  have : (BitVec.ofNat 32 d).slt 0#32 = false := by
    rw [BitVec.slt, decide_eq_false_iff_not, BitVec.toInt_eq_toNat_cond, BitVec.toNat_ofNat]
    simp
    omega
  rw [this]; rfl

/-- A position's word read signed is the position. -/
theorem toInt_small (d : Nat) (hd : d < 2048) : (BitVec.ofNat 32 d).toInt.toNat = d := by
  rw [BitVec.toInt_eq_toNat_cond, BitVec.toNat_ofNat]
  have : d % 2 ^ 32 = d := Nat.mod_eq_of_lt (by omega)
  rw [this, if_pos (by omega)]
  simp

/-! ## The table of start indices -/

/-- The start index at `(i, j)` is the distance `|i - j|`. -/
theorem start_index (i j : Fin 2048) :
    val_main_v12 (F := F) (ix3 i j (0 : Fin 1)) = BitVec.ofNat 32 (Toeplitz.dist i j).val := by
  rw [val_main_v12_apply, val_main_v11_apply, val_main_v8_apply, val_main_v10_apply, val_main_v6_apply, val_main_v5_apply,
    val_main_v3_apply, val_main_v4_apply, val_main_v1_apply, val_main_v2_apply, val_main_v0_apply, val_main_v0_apply,
    val_main_v7_apply, val_main_c_apply, val_main_v9_apply, val_main_c_0_apply]
  show Scalar.select (IntOp.cmpi .slt (IntOp.absi (IntOp.subi (BitVec.ofNat 32 i.val) (BitVec.ofNat 32 j.val))) 0#32)
      (IntOp.addi (IntOp.absi (IntOp.subi (BitVec.ofNat 32 i.val) (BitVec.ofNat 32 j.val))) 2048#32)
      (IntOp.absi (IntOp.subi (BitVec.ofNat 32 i.val) (BitVec.ofNat 32 j.val))) = _
  rw [absi_sub i.val j.val i.isLt j.isLt, ← Toeplitz.dist_val, slt_zero _ (Toeplitz.dist i j).isLt]
  exact select_zero _ _

/-! ## The gather read at an index -/

/-- THE GATHER AT `(n, i, j)`: the operand's batch row `n` at the start index `idx[i, j, 0]`, read signed and clamped
    into `[0, 2047]`. The batch axis is the gather's one offset axis, read whole (slice size 64, start 0); the column axis
    is collapsed (slice size 1) and is the one axis the start index names. -/
theorem gather_apply {α : Type} (x : S64x2048.Idx → α) (idx : IVec S2048x2048x1 32) (n : Fin 64) (i j : Fin 2048) :
    Host.gather gather_S64x2048_S2048x2048x1_S64x2048x2048_0_1_n_n_1_2_641 x idx (ix3 n i j)
      = x (ix2 n (⟨min (idx (ix3 i j (0 : Fin 1))).toInt.toNat 2047, by omega⟩ : Fin 2048)) := by
  unfold Host.gather
  refine congrArg x (funext fun a => Fin.ext ?_)
  match a with
  | ⟨0, _⟩ =>
    show gather_S64x2048_S2048x2048x1_S64x2048x2048_0_1_n_n_1_2_641.start (ix3 n i j) idx 0
        + gather_S64x2048_S2048x2048x1_S64x2048x2048_0_1_n_n_1_2_641.batchCoord (ix3 n i j) 0
        + gather_S64x2048_S2048x2048x1_S64x2048x2048_0_1_n_n_1_2_641.offCoord (ix3 n i j) 0 = n.val
    rw [GatherDims.batchCoord_eq_zero _ _ _ List.not_mem_nil]
    have hs : gather_S64x2048_S2048x2048x1_S64x2048x2048_0_1_n_n_1_2_641.start (ix3 n i j) idx 0 = 0 := by
      unfold GatherDims.start; rw [dif_neg (by decide)]
    have ho : gather_S64x2048_S2048x2048x1_S64x2048x2048_0_1_n_n_1_2_641.offCoord (ix3 n i j) 0 = n.val := by
      unfold GatherDims.offCoord; rw [dif_pos (by decide)]; rfl
    rw [hs, ho]; omega
  | ⟨1, _⟩ =>
    show gather_S64x2048_S2048x2048x1_S64x2048x2048_0_1_n_n_1_2_641.start (ix3 n i j) idx 1
        + gather_S64x2048_S2048x2048x1_S64x2048x2048_0_1_n_n_1_2_641.batchCoord (ix3 n i j) 1
        + gather_S64x2048_S2048x2048x1_S64x2048x2048_0_1_n_n_1_2_641.offCoord (ix3 n i j) 1
      = min (idx (ix3 i j (0 : Fin 1))).toInt.toNat 2047
    rw [GatherDims.batchCoord_eq_zero _ _ _ List.not_mem_nil, GatherDims.offCoord_eq_zero _ _ _ (by decide)]
    simp only [Nat.add_zero]
    unfold GatherDims.start
    rw [dif_pos (show (1 : Fin 2) ∈ gather_S64x2048_S2048x2048x1_S64x2048x2048_0_1_n_n_1_2_641.startIndexMap from
      List.mem_singleton.mpr rfl)]
    have hsi : gather_S64x2048_S2048x2048x1_S64x2048x2048_0_1_n_n_1_2_641.siIdx (ix3 n i j)
        ⟨List.idxOf (1 : Fin 2) gather_S64x2048_S2048x2048x1_S64x2048x2048_0_1_n_n_1_2_641.startIndexMap,
          List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl

/-! ## The reference's result -/

/-- THE REFERENCE IS THE FILL: the gather of the input at the table of distances is, index by index, the input's
    entry at `(n, |i - j|)`. -/
theorem ref_eq (x : S64x2048.Idx → Elt F .f32) : val_main_v13 (F := F) x = Toeplitz.fill x := by
  funext y
  obtain ⟨n, i, j, rfl⟩ : ∃ (n : Fin 64) (i j : Fin 2048), y = ix3 n i j := ⟨y 0, y 1, y 2, eq_ix3 y⟩
  unfold val_main_v13
  rw [gather_apply, Toeplitz.fill_apply]
  refine congrArg x (congrArg (ix2 n) (Fin.ext ?_))
  show min (val_main_v12 (F := F) (ix3 i j (0 : Fin 1))).toInt.toNat 2047 = (Toeplitz.dist i j).val
  rw [start_index, toInt_small _ (Toeplitz.dist i j).isLt]
  have := (Toeplitz.dist i j).isLt
  omega

end Cert.ReferenceIdeal.RefValue

end
-- ==== Proof.KernelBody.lean ====
/-
  What one grid point's body leaves in its output block. At grid point `(n, b)` the body copies, for each of the
  128 rows `r` of the block, the 2048 consecutive lanes of the doubled vector that start at lane
  `2047 - (128 b + r)` into row `r`: entry `(0, r, j)` of the block is entry `(0, 0, 2047 - (128 b + r) + j)`
  of the doubled vector. The two shape casts between the load and the store cancel.
-/
import proofs.«162363_j25417616458409_1_alg».proof.Proof.Gen.KernelIdeal.Frame
import Idealize.ShloMosaic.Lib.Pipeline.Value
import Idealize.ShloMosaic.Lib.ValueIdx

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem
open Idealize.ShloMosaic.ValueIdx

variable {F : FTy → Type} [FloatOps F]

/-- The block a grid point with second coordinate `b` writes, as a function of the doubled vector `x0` it is handed:
    row `r`, lane `j` holds lane `2047 - (128 b + r) + j` of `x0`. -/
def blockOf {α : Type} (i : grid0.Coords) (x0 : S1x1x4096.Idx → α) : S1x128x2048.Idx → α :=
  fun y => x0 (ix3 (0 : Fin 1) (0 : Fin 1)
    (⟨2047 - (128 * (i 1).val + (y 1).val) + (y 2).val, by
      have h1 : (i 1).val < 16 := (i 1).isLt
      have h2 : (y 1).val < 128 := (y 1).isLt
      have h3 : (y 2).val < 2048 := (y 2).isLt
      omega⟩ : Fin 4096))

/-- ONE ROW'S PIECE: the load of 2048 lanes at the row's start, cast flat and back, read at the piece's own index, is
    `blockOf` at the block index under the piece. -/
theorem piece_eq (i : grid0.Coords) (arg2 : Memref sig .tc .vmem S1x1x4096 .f32) (harg2 : arg2.IsWhole)
    (x0 : Vec F S1x1x4096 .f32) (r : Nat) (hr : r < 128)
    (inb : ∀ a, (k0_off1 i (BitVec.ofNat 32 r)) a + S1x1x2048.size a ≤ S1x1x4096.size a)
    (inb' : ∀ a, (![0, r, 0] : Fin 3 → Nat) a + S1x1x2048.size a ≤ S1x128x2048.size a)
    (x : S1x1x2048.Idx) :
    shapeCast S1x1x2048 (shapeCast S2048
        (View.readAt (Elt F) arg2.view (Rect.unit (s := S1x1x4096) (k0_off1 i (BitVec.ofNat 32 r)) S1x1x2048.size inb).toLoadRect (harg2.unread x0))
        shapeCasts_S1x1x2048_S2048) shapeCasts_S2048_S1x1x2048 x
      = blockOf i x0 ((Rect.unit (s := S1x128x2048) ![0, r, 0] S1x1x2048.size inb').emb x) := by
  rw [shapeCast_shapeCast, View.readAt_apply, harg2.read_unread]
  unfold blockOf
  have e : k0_off1 i (BitVec.ofNat 32 r) = ![0, 0, 2047 - (128 * (i 1).val + r)] := k0_off1_eq i ⟨r, hr⟩
  have hx1 : (x 1).val < 1 := (x 1).isLt
  refine congrArg x0 (funext fun a => Fin.ext ?_)
  match a with
  | ⟨0, _⟩ =>
    have hx0 : (x 0).val < 1 := (x 0).isLt
    show (k0_off1 i (BitVec.ofNat 32 r)) 0 + 1 * (x 0).val = 0
    rw [e]; show 0 + 1 * (x 0).val = 0; omega
  | ⟨1, _⟩ =>
    show (k0_off1 i (BitVec.ofNat 32 r)) 1 + 1 * (x 1).val = 0
    rw [e]; show 0 + 1 * (x 1).val = 0; omega
  | ⟨2, _⟩ =>
    show (k0_off1 i (BitVec.ofNat 32 r)) 2 + 1 * (x 2).val
      = 2047 - (128 * (i 1).val + (r + 1 * (x 1).val)) + (0 + 1 * (x 2).val)
    rw [e]; show 2047 - (128 * (i 1).val + r) + 1 * (x 2).val = _; omega

/-- THE BLOCK: what the body leaves in the output's staging buffer at a grid point is `blockOf` of the doubled vector it
    was handed. Every one of the 128 stored rows agrees with `blockOf` (`piece_eq`, at that row's number), and the rows
    cover the block. -/
theorem out_eq (c : Dev nD) (i : grid0.Coords) (arg2 : Memref sig .tc .vmem S1x1x4096 .f32) (harg2 : arg2.IsWhole)
    (arg3 : Memref sig .tc .vmem S1x128x2048 .f32) (harg3 : arg3.IsWhole) (x0 : Vec F S1x1x4096 .f32) :
    out0_A_1 c i arg2 harg2 arg3 harg3 x0 = blockOf i x0 := by
  funext y
  unfold out0_A_1
  refine View.read_writes_apply_of_pieces VO0_1 VO0_1.junk (blockOf i x0) _ ?_ y (cover0_A_1 c i arg2 harg2 arg3 harg3 x0 y)
  unfold kernelRun0_A
  dsimp only
  simp only [List.forall_mem_cons, List.not_mem_nil, false_imp_iff, implies_true, and_true]
  repeat' apply And.intro
  all_goals (intro x; exact piece_eq i arg2 harg2 x0 _ (by decide) _ _ x)

end Cert.KernelIdeal.Body

end
-- ==== Proof.KernelHost.lean ====
/-
  The doubled vector. Before the kernel is launched the host lays each batch row `n` of the input out twice around its
  first entry: the row without its first entry, reversed, then the row itself, then one lane of padding — 4096 lanes,
  with lane `t < 4095` holding the input's entry `|t - 2047|` of row `n`. This is what the kernel's input window finds.
-/
import proofs.«162363_j25417616458409_1_alg».proof.Proof.Gen.KernelIdeal.Frame
import proofs.«162363_j25417616458409_1_alg».proof.Proof.ToeplitzSpec
import Idealize.ShloMosaic.Lib.Pipeline.Value
import Idealize.ShloMosaic.Lib.KernelVsHost
import Idealize.ShloMosaic.Lib.StableHlo.Run
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.ShloMosaic.Tactic Idealize.SL.Sem
open Idealize.ShloMosaic.StableHlo Idealize.ShloMosaic.ValueIdx

variable {F : FTy → Type} [FloatOps F]

/-- The doubled vector as the host's operations compute it from the input `x`: slice off the first column, reverse,
    concatenate with `x`, pad one lane, add a unit axis. -/
def doubled (x : S64x2048.Idx → Elt F .f32) : S64x1x4096.Idx → Elt F .f32 :=
  shapeCast S64x1x4096
    (pad S64x4096 ![0, 0] ![0, 1] ![0, 0]
      (concatenate S64x4095 1
        [⟨S64x2047, Host.reverse [1] (extractStridedSlice S64x2047 ![0, 1] x slices_S64x2048_S64x2047_0_1)⟩, ⟨S64x2048, x⟩]
        concatenates_S64x2047_S64x2048_S64x4095_d1)
      (sitofp .f32 (constantI S_ 32 0#32) : S_.Idx → Elt F .f32) pads_S64x4095_S64x4096_000_010 h_S_)
    shapeCasts_S64x4096_S64x1x4096

/-- The input window's array, as the region finds it, is the doubled vector of the argument. -/
theorem V_main_v4 (m : (ℓ : Loc nD τ sig) → Buf (Elt F) ℓ) (c : Dev nD) :
    (V m c main_v4 : S64x1x4096.Idx → Elt F .f32) = doubled (m ((c : Thread nD τ).loc main_arg0)) := by
  dsimp only [V]
  simp only [hostOps0, hostOps0_1, hostOps0_2, hostOps0_3, hostOps0_4, List.flatten_cons, List.flatten_nil, List.append_nil,
    List.cons_append, List.nil_append]
  after_results
  rfl

/-- THE DOUBLED VECTOR AT A LANE: below the padding lane, lane `t` of batch row `n` is the input's entry `|t - 2047|` of
    that row — from the reversed tail for `t < 2047`, from the row itself from lane 2047 on. -/
theorem doubled_apply (x : S64x2048.Idx → Elt F .f32) (n : Fin 64) (t : Fin 4096) (ht : t.val < 4095) :
    doubled x (ix3 n (0 : Fin 1) t) = x (ix2 n (⟨if t.val < 2047 then 2047 - t.val else t.val - 2047, by split <;> omega⟩ : Fin 2048)) := by
  unfold doubled
  refine (shapeCast_apply _ shapeCasts_S64x4096_S64x1x4096 (ix3 n (0 : Fin 1) t) (ix2 n t) (by
    rw [Shape.rowMajor_val_two, Shape.rowMajor_val_three]
    show n.val * 4096 + t.val = (n.val * 1 + 0) * 4096 + t.val
    omega)).trans ?_
  refine (pad_apply_of_inside ![0, 0] ![0, 1] ![0, 0] _ _ pads_S64x4095_S64x4096_000_010 h_S_ (ix2 n t)
    (ix2 n (⟨t.val, ht⟩ : Fin 4095)) (fun a => match a with
      | ⟨0, _⟩ => by show n.val = 0 + n.val * (0 + 1); omega
      | ⟨1, _⟩ => by show t.val = 0 + t.val * (0 + 1); omega)).trans ?_
  by_cases h : t.val < 2047
  · rw [show (⟨if t.val < 2047 then 2047 - t.val else t.val - 2047, by split <;> omega⟩ : Fin 2048)
        = ⟨2047 - t.val, by omega⟩ from Fin.ext (if_pos h)]
    refine (concatenate_pair_apply_left (t := S64x4095) (s₁ := S64x2047) (s₂ := S64x2048) (1 : Fin 2)
      (Host.reverse [1] (extractStridedSlice S64x2047 ![0, 1] x slices_S64x2048_S64x2047_0_1)) x
      concatenates_S64x2047_S64x2048_S64x4095_d1
      (ix2 n (⟨t.val, ht⟩ : Fin 4095)) rfl (ix2 n (⟨t.val, h⟩ : Fin 2047)) (fun b => match b with
        | ⟨0, _⟩ => rfl
        | ⟨1, _⟩ => rfl)).trans ?_
    unfold Host.reverse
    refine extractStridedSlice_apply ![0, 1] x slices_S64x2048_S64x2047_0_1 _ _ (fun a => match a with
      | ⟨0, _⟩ => by show n.val = 0 + n.val; omega
      | ⟨1, _⟩ => by
        show 2047 - t.val = 1 + (Fin.rev (⟨t.val, h⟩ : Fin 2047)).val
        rw [Fin.val_rev]; show 2047 - t.val = 1 + (2047 - (t.val + 1)); omega)
  · rw [show (⟨if t.val < 2047 then 2047 - t.val else t.val - 2047, by split <;> omega⟩ : Fin 2048)
        = ⟨t.val - 2047, by omega⟩ from Fin.ext (if_neg h)]
    refine concatenate_pair_apply_right (t := S64x4095) (s₁ := S64x2047) (s₂ := S64x2048) (1 : Fin 2)
      (Host.reverse [1] (extractStridedSlice S64x2047 ![0, 1] x slices_S64x2048_S64x2047_0_1)) x
      concatenates_S64x2047_S64x2048_S64x4095_d1
      (ix2 n (⟨t.val, ht⟩ : Fin 4095)) rfl rfl (ix2 n (⟨t.val - 2047, by omega⟩ : Fin 2048)) (fun b => match b with
        | ⟨0, _⟩ => fun _ => rfl
        | ⟨1, _⟩ => fun hb => absurd rfl hb) (by
        show (t.val - 2047) + 2047 = t.val; omega)

end Cert.KernelIdeal.HostSide

end
-- ==== Proof.KernelArray.lean ====
/-
  From blocks to the array. Grid point `t = (n, b)` writes back the block of batch row `n`, rows `128 b … 128 b + 127`,
  all 2048 columns. Row `r` of that block holds lanes `2047 - (128 b + r) + j` of the doubled vector of batch row `n`,
  that is the input's entries `|j - (128 b + r)|`: the block is the fill's block. The 64 × 16 blocks tile the array
  (the point that covers `(n, i, j)` is `(n, i / 128)`), so the array ends holding the fill of the input.
-/
import proofs.«162363_j25417616458409_1_alg».proof.Proof.Gen.KernelIdeal.Value
import proofs.«162363_j25417616458409_1_alg».proof.Proof.KernelBody
import proofs.«162363_j25417616458409_1_alg».proof.Proof.KernelHost
import proofs.«162363_j25417616458409_1_alg».proof.Proof.ToeplitzSpec
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The index maps over the grid, decided: point `t` is `(t / 16, t % 16)`; the output's block index there is
    `(t / 16, t % 16, 0)`, the input's `(t / 16, 0, 0)`. -/
theorem idx_facts : ∀ t : Fin cfg0.N,
    win0_1.index t (0 : Fin 3) = t.val / 16 ∧ win0_1.index t (1 : Fin 3) = t.val % 16 ∧ win0_1.index t (2 : Fin 3) = 0
    ∧ win0_0.index t (0 : Fin 3) = t.val / 16 ∧ win0_0.index t (1 : Fin 3) = 0 ∧ win0_0.index t (2 : Fin 3) = 0
    ∧ (grid0.coords t (1 : Fin 2)).val = t.val % 16 :=
  (by decide +kernel : ∀ t : Fin grid0.N,
    win0_1.index t (0 : Fin 3) = t.val / 16 ∧ win0_1.index t (1 : Fin 3) = t.val % 16 ∧ win0_1.index t (2 : Fin 3) = 0
    ∧ win0_0.index t (0 : Fin 3) = t.val / 16 ∧ win0_0.index t (1 : Fin 3) = 0 ∧ win0_0.index t (2 : Fin 3) = 0
    ∧ (grid0.coords t (1 : Fin 2)).val = t.val % 16)

/-- An index of the array is in point `t`'s block iff each coordinate is in the block's range on its axis. -/
theorem mem_blk (t : Fin cfg0.N) (i : S64x2048x2048.Idx) :
    i ∈ ((cfg0.win 1).blk t).view.set ↔ ∀ a : Fin 3, win0_1.index t a * S1x128x2048.size a ≤ (i a).val
      ∧ (i a).val < win0_1.index t a * S1x128x2048.size a + S1x128x2048.size a := by
  show i ∈ ((View.whole main_v5).slice (win0_1.rect t)).set ↔ _
  rw [View.set_slice_whole, Rect.mem_set_unit]
  exact Iff.rfl

/-- THE COVER: every index `(n, i, j)` of the array is in the block of the point `(n, i / 128)`. -/
theorem cover (i : S64x2048x2048.Idx) :
    ∃ t : Fin cfg0.N, (cfg0.win 1).flush t = true ∧ i ∈ ((cfg0.win 1).blk t).view.set := by
  have hi0 : (i 0).val < 64 := (i 0).isLt
  have hi1 : (i 1).val < 2048 := (i 1).isLt
  have hi2 : (i 2).val < 2048 := (i 2).isLt
  obtain ⟨t, ht⟩ : ∃ t : Fin cfg0.N, t.val = (i 0).val * 16 + (i 1).val / 128 :=
    ⟨⟨(i 0).val * 16 + (i 1).val / 128, by show _ < grid0.N; rw [N_0]; omega⟩, rfl⟩
  obtain ⟨f0, f1, f2, -⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    rw [f0, ht]; omega
  | ⟨1, _⟩ =>
    show win0_1.index t (1 : Fin 3) * 128 ≤ (i 1).val ∧ (i 1).val < win0_1.index t (1 : Fin 3) * 128 + 128
    rw [f1, ht]; omega
  | ⟨2, _⟩ =>
    show win0_1.index t (2 : Fin 3) * 2048 ≤ (i 2).val ∧ (i 2).val < win0_1.index t (2 : Fin 3) * 2048 + 2048
    rw [f2]; omega

/-- WHAT POINT `t` WRITES BACK is block `t` of the fill of the input. -/
theorem flushed_eq (c : Dev nD) (t : Fin cfg0.N) :
    (dats m 0 c).flushed 1 t
      = ((cfg0.win 1).blk t).view.read (Elt F) (Toeplitz.fill (m ((c : Thread nD τ).loc main_arg0))) := by
  rw [Value.flushed1_A, Body.out_eq]
  obtain ⟨f0, f1, f2, g0, g1, g2, hc⟩ := idx_facts t
  funext j
  have htN : t.val < 1024 := Nat.lt_of_lt_of_eq t.isLt N_0
  have hj0 : (j 0).val < 1 := (j 0).isLt
  have hj1 : (j 1).val < 128 := (j 1).isLt
  have hj2 : (j 2).val < 2048 := (j 2).isLt
  -- the left side: a lane of the doubled vector of batch row `t / 16`
  have hL : (cfg0.win 1).cut (grid0.coords t) (Body.blockOf (grid0.coords t) (iblk m c 0 t)) j
      = HostSide.doubled (m ((c : Thread nD τ).loc main_arg0))
          (ix3 (⟨t.val / 16, by omega⟩ : Fin 64) (0 : Fin 1)
            (⟨2047 - (128 * (t.val % 16) + (j 1).val) + (j 2).val, by omega⟩ : Fin 4096)) := by
    show V m c main_v4 (((cfg0.win 0).blk t).view.emb
      (ix3 (0 : Fin 1) (0 : Fin 1) (⟨2047 - (128 * (grid0.coords t (1 : Fin 2)).val + (j 1).val) + (j 2).val, _⟩ : Fin 4096))) = _
    rw [HostSide.V_main_v4]
    refine congrArg _ (funext fun a => Fin.ext ?_)
    match a with
    | ⟨0, _⟩ =>
      show win0_0.index t (0 : Fin 3) * 1 + 1 * 0 = t.val / 16
      rw [g0]; omega
    | ⟨1, _⟩ =>
      show win0_0.index t (1 : Fin 3) * 1 + 1 * 0 = 0
      rw [g1]
    | ⟨2, _⟩ =>
      show win0_0.index t (2 : Fin 3) * 4096 + 1 * (2047 - (128 * (grid0.coords t (1 : Fin 2)).val + (j 1).val) + (j 2).val)
        = 2047 - (128 * (t.val % 16) + (j 1).val) + (j 2).val
      rw [g2, hc]; omega
  rw [hL, HostSide.doubled_apply _ _ _ (by show 2047 - (128 * (t.val % 16) + (j 1).val) + (j 2).val < 4095; omega)]
  -- the right side: the fill at the array index under `j`, which is `(t / 16, 128 (t % 16) + j 1, j 2)`
  show _ = m ((c : Thread nD τ).loc main_arg0) (ix2 ((((cfg0.win 1).blk t).view.emb j) 0)
      (Toeplitz.dist ((((cfg0.win 1).blk t).view.emb j) 1) ((((cfg0.win 1).blk t).view.emb j) 2)))
  refine congrArg _ (funext fun a => Fin.ext ?_)
  match a with
  | ⟨0, _⟩ =>
    show t.val / 16 = win0_1.index t (0 : Fin 3) * 1 + 1 * (j 0).val
    rw [f0]; omega
  | ⟨1, _⟩ =>
    show (if 2047 - (128 * (t.val % 16) + (j 1).val) + (j 2).val < 2047
        then 2047 - (2047 - (128 * (t.val % 16) + (j 1).val) + (j 2).val)
        else 2047 - (128 * (t.val % 16) + (j 1).val) + (j 2).val - 2047)
      = (if win0_1.index t (1 : Fin 3) * 128 + 1 * (j 1).val ≤ win0_1.index t (2 : Fin 3) * 2048 + 1 * (j 2).val
        then win0_1.index t (2 : Fin 3) * 2048 + 1 * (j 2).val - (win0_1.index t (1 : Fin 3) * 128 + 1 * (j 1).val)
        else win0_1.index t (1 : Fin 3) * 128 + 1 * (j 1).val - (win0_1.index t (2 : Fin 3) * 2048 + 1 * (j 2).val))
    rw [f1, f2]
    split_ifs <;> omega

/-- THE ARRAY after the run is the fill of the input. -/
theorem final (c : Dev nD) :
    (dats m 0 c).arrAt 1 cfg0.N = Toeplitz.fill (m ((c : Thread nD τ).loc main_arg0)) :=
  (dats m 0 c).arrAt_eq_of_cover 1 (Toeplitz.fill (m ((c : Thread nD τ).loc main_arg0)))
    (fun t _ => flushed_eq m c t) cover

/-- THE RUN, READ: every weakly fair execution of the idealized kernel ends with the result array holding the fill
    of the input, the input unchanged. -/
theorem run : θ_run defs (onTc (τ := τ) (main (F := F))) ⟨m, fun _ => 0, ρ⟩ fun r => ∀ c : Dev nD,
      r.2.mem ((c : Thread nD τ).loc main_v5) = Toeplitz.fill (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.lean ====
/-
  The symmetric Toeplitz fill: `output[n, i, j] = input[n, |i - j|]` for a 64 × 2048 input.

  The reference gathers column `|i - j|` of every batch row through an integer table of distances
  (Proof/RefToeplitz.lean). The kernel never forms that table. On the host it doubles every batch row around its first
  entry — the reversed tail, then the row — so that lane `t` of the doubled vector holds entry `|t - 2047|`
  (Proof/KernelHost.lean); grid point `(n, b)` then copies, for each of its 128 rows `r`, the 2048 consecutive lanes
  starting at `2047 - (128 b + r)` (Proof/KernelBody.lean), so row `i = 128 b + r`, column `j` holds lane
  `2047 - i + j`, that is entry `|j - i|`; the 64 × 16 blocks tile the result (Proof/KernelArray.lean). Both programs
  only move data: the two results are the same entries of the input, equal as extended reals whatever the input holds,
  and the precondition is not used.

  The three frames are the generated frame runs (the reference's frame is its run with the result dropped); the
  idealization rewrote nothing, so `preserves` is `True`.
-/
import proofs.«162363_j25417616458409_1_alg».proof.Defs
import proofs.«162363_j25417616458409_1_alg».proof.Proof.Gen.Kernel
import proofs.«162363_j25417616458409_1_alg».proof.Proof.Gen.Kernel.Skeleton
import proofs.«162363_j25417616458409_1_alg».proof.Proof.Gen.Kernel.Launch
import proofs.«162363_j25417616458409_1_alg».proof.Proof.Gen.Kernel.Points
import proofs.«162363_j25417616458409_1_alg».proof.Proof.Gen.Kernel.Frame
import proofs.«162363_j25417616458409_1_alg».proof.Proof.Gen.KernelIdeal
import proofs.«162363_j25417616458409_1_alg».proof.Proof.Gen.KernelIdeal.Skeleton
import proofs.«162363_j25417616458409_1_alg».proof.Proof.Gen.KernelIdeal.Launch
import proofs.«162363_j25417616458409_1_alg».proof.Proof.Gen.KernelIdeal.Points
import proofs.«162363_j25417616458409_1_alg».proof.Proof.Gen.KernelIdeal.Frame
import proofs.«162363_j25417616458409_1_alg».proof.Proof.Gen.ReferenceIdeal
import proofs.«162363_j25417616458409_1_alg».proof.Proof.Gen.KernelIdeal.Value
import proofs.«162363_j25417616458409_1_alg».proof.Proof.Gen.ReferenceIdeal.Run
import proofs.«162363_j25417616458409_1_alg».proof.Proof.Gen.ReferenceIdeal.Read
import proofs.«162363_j25417616458409_1_alg».proof.Proof.Gen.Pre_finite_inputs
import proofs.«162363_j25417616458409_1_alg».proof.Proof.ToeplitzSpec
import proofs.«162363_j25417616458409_1_alg».proof.Proof.RefToeplitz
import proofs.«162363_j25417616458409_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- The idealized kernel runs and leaves its argument unchanged. -/
theorem frame_kernelIdeal : Cert.frame_KernelIdeal := fun m ρ _ => Cert.KernelIdeal.Gen.frame m ρ

/-- The idealized reference runs and leaves its argument unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From inputs that agree, both programs end with the fill of the input: the kernel's result array block by block
    (`Whole.run`), the reference's gather index by index (`RefValue.ref_eq`). -/
theorem algebraic : Cert.algebraic_KernelIdeal_ReferenceIdeal := by
  intro m ρ m' ρ' _ hagree
  refine ⟨fun c => Toeplitz.fill (m ((c.tc : Thread Cert.KernelIdeal.nD Cert.KernelIdeal.τ).loc Cert.KernelIdeal.main_arg0)),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
